-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S256x64 : Shape := ⟨2, ![256, 64]⟩
abbrev S100000x1 : Shape := ⟨2, ![100000, 1]⟩
abbrev S256x1 : Shape := ⟨2, ![256, 1]⟩
abbrev S1x1 : Shape := ⟨2, ![1, 1]⟩

abbrev nBuf : Space → Nat
  | .hbm => 77
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S1x64, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S100000x64, .f32⟩
  | .hbm, ⟨69, _⟩ => ⟨S_, .f32⟩
  | .hbm, ⟨70, _⟩ => ⟨S256x64, .f32⟩
  | .hbm, ⟨71, _⟩ => ⟨S100000x1, .i32⟩
  | .hbm, ⟨72, _⟩ => ⟨S256x64, .f32⟩
  | .hbm, ⟨73, _⟩ => ⟨S256x1, .f32⟩
  | .hbm, ⟨74, _⟩ => ⟨S1x1, .f32⟩
  | .hbm, ⟨75, _⟩ => ⟨S256x1, .f32⟩
  | .hbm, ⟨76, _⟩ => ⟨S256x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S256x64 : Shape := ⟨2, ![256, 64]⟩
abbrev S100000x1 : Shape := ⟨2, ![100000, 1]⟩
abbrev S256x1 : Shape := ⟨2, ![256, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S256x64, .f32⟩
  | .hbm, ⟨104, _⟩ => ⟨S100000x1, .i32⟩
  | .hbm, ⟨105, _⟩ => ⟨S256x64, .f32⟩
  | .hbm, ⟨106, _⟩ => ⟨S256x1, .f32⟩
  | .hbm, ⟨107, _⟩ => ⟨S1x1, .f32⟩
  | .hbm, ⟨108, _⟩ => ⟨S256x1, .f32⟩
  | .hbm, ⟨109, _⟩ => ⟨S256x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  dot_S256x64_S64x1_S256x1_1_0_0_1_n_n_wf : DotDims.WF S256x64 S64x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.GinSpec.lean ====
/-
  One dense layer of the network as a function of whole arrays over the extended reals.

  For a node-feature array h and an aggregated-neighbour array a (both n × 64), weight matrices W₁, W₂ (64 × 64) and
  bias rows b₁, b₂ (1 × 64):

      hidden(p, k) = max( Σ_j (h(p, j) + a(p, j)) · W₁(j, k) + b₁(0, k), 0 )
      pre(p, q)    = Σ_k hidden(p, k) · W₂(k, q) + b₂(0, q)

  The two inner layers output max(pre, 0); the last layer outputs pre.  Row p of the output depends only on row p of
  h and of a, so any block of consecutive rows of the output is the same layer applied to that block of rows of h
  and a: this is why computing the layer tile by tile gives the whole-array layer.
-/
import Idealize.ShloMosaic.PureOps.Ideal
import Idealize.ShloMosaic.Lib.ValueIdx

noncomputable section

namespace Cert.GinSpec

open Idealize.ShloMosaic Idealize.ShloMosaic.ValueIdx

/-- An a × b array of extended reals. -/
abbrev Mat (a b : Nat) : Type := (⟨2, ![a, b]⟩ : Shape).Idx → EReal

/-- The hidden activation of row p, unit k. -/
def hidden {n : Nat} (h a : Mat n 64) (w1 : Mat 64 64) (b1 : Mat 1 64) (p : Fin n) (k : Fin 64) : EReal :=
  max ((∑ j : Fin 64, (h (ix2 p j) + a (ix2 p j)) * w1 (ix2 j k)) + b1 (ix2 (0 : Fin 1) k)) 0

/-- The second affine map of row p, output channel q, before any final rectification. -/
def pre {n : Nat} (h a : Mat n 64) (w1 : Mat 64 64) (b1 : Mat 1 64) (w2 : Mat 64 64) (b2 : Mat 1 64)
    (p : Fin n) (q : Fin 64) : EReal :=
  (∑ k : Fin 64, hidden h a w1 b1 p k * w2 (ix2 k q)) + b2 (ix2 (0 : Fin 1) q)

/-- A layer followed by rectification (the two inner layers). -/
def layerRelu {n : Nat} (h a : Mat n 64) (w1 : Mat 64 64) (b1 : Mat 1 64) (w2 : Mat 64 64) (b2 : Mat 1 64) : Mat n 64 :=
  fun i => max (pre h a w1 b1 w2 b2 (i 0) (i 1)) 0

/-- A layer with no final rectification (the last layer). -/
def layerLin {n : Nat} (h a : Mat n 64) (w1 : Mat 64 64) (b1 : Mat 1 64) (w2 : Mat 64 64) (b2 : Mat 1 64) : Mat n 64 :=
  fun i => pre h a w1 b1 w2 b2 (i 0) (i 1)

theorem layerRelu_ix2 {n : Nat} (h a : Mat n 64) (w1 : Mat 64 64) (b1 : Mat 1 64) (w2 : Mat 64 64) (b2 : Mat 1 64)
    (p : Fin n) (q : Fin 64) : layerRelu h a w1 b1 w2 b2 (ix2 p q) = max (pre h a w1 b1 w2 b2 p q) 0 := rfl

theorem layerLin_ix2 {n : Nat} (h a : Mat n 64) (w1 : Mat 64 64) (b1 : Mat 1 64) (w2 : Mat 64 64) (b2 : Mat 1 64)
    (p : Fin n) (q : Fin 64) : layerLin h a w1 b1 w2 b2 (ix2 p q) = pre h a w1 b1 w2 b2 p q := rfl

/-- Row locality: if row p' of (h', a') is row p of (h, a), the two layers agree there. -/
theorem pre_of_rows {n n' : Nat} (h a : Mat n 64) (h' a' : Mat n' 64) (w1 : Mat 64 64) (b1 : Mat 1 64)
    (w2 : Mat 64 64) (b2 : Mat 1 64) (p : Fin n) (p' : Fin n')
    (hh : ∀ j : Fin 64, h' (ix2 p' j) = h (ix2 p j)) (ha : ∀ j : Fin 64, a' (ix2 p' j) = a (ix2 p j)) (q : Fin 64) :
    pre h' a' w1 b1 w2 b2 p' q = pre h a w1 b1 w2 b2 p q := by
  unfold pre hidden
  simp only [hh, ha]

/-- The rectified layer at (p', q) of a block equals the rectified layer at (p, q) of the whole array when row p' of the
    block's features and aggregates is row p of the whole array's. -/
theorem layerRelu_of_rows {n n' : Nat} (h a : Mat n 64) (h' a' : Mat n' 64) (w1 : Mat 64 64) (b1 : Mat 1 64)
    (w2 : Mat 64 64) (b2 : Mat 1 64) (p : Fin n) (p' : Fin n')
    (hh : ∀ j : Fin 64, h' (ix2 p' j) = h (ix2 p j)) (ha : ∀ j : Fin 64, a' (ix2 p' j) = a (ix2 p j)) (q : Fin 64) :
    layerRelu h' a' w1 b1 w2 b2 (ix2 p' q) = layerRelu h a w1 b1 w2 b2 (ix2 p q) := by
  rw [layerRelu_ix2, layerRelu_ix2, pre_of_rows h a h' a' w1 b1 w2 b2 p p' hh ha q]

/-- The same for the un-rectified layer. -/
theorem layerLin_of_rows {n n' : Nat} (h a : Mat n 64) (h' a' : Mat n' 64) (w1 : Mat 64 64) (b1 : Mat 1 64)
    (w2 : Mat 64 64) (b2 : Mat 1 64) (p : Fin n) (p' : Fin n')
    (hh : ∀ j : Fin 64, h' (ix2 p' j) = h (ix2 p j)) (ha : ∀ j : Fin 64, a' (ix2 p' j) = a (ix2 p j)) (q : Fin 64) :
    layerLin h' a' w1 b1 w2 b2 (ix2 p' q) = layerLin h a w1 b1 w2 b2 (ix2 p q) := by
  rw [layerLin_ix2, layerLin_ix2, pre_of_rows h a h' a' w1 b1 w2 b2 p p' hh ha q]

end Cert.GinSpec

end
-- ==== Proof.Network.lean ====
/-
  The whole network as one function of its argument arrays, over the extended reals.

  From the 2 × 1600000 edge array take the source list (row 0) and the destination list (row 1).  For a node-feature
  array h, the neighbour aggregate is the scatter-add, into an array of zeros indexed by destination, of the rows of h
  gathered at the sources (a negative source index counted from the end).  A layer maps h to the dense layer of
  (h, aggregate h); the bias vectors enter as 1 × 64 rows.  Three layers follow one another, the first two rectified,
  and the read-out adds the rows of the last features into 256 graph slots by the batch vector, multiplies by the
  64 × 1 head and adds the head's bias.
-/
import proofs.«142037_j66022237274356_1_alg».proof.Proof.Gen.KernelIdeal
import proofs.«142037_j66022237274356_1_alg».proof.Proof.GinSpec

noncomputable section

namespace Cert.KernelIdeal.Net

open Cert.KernelIdeal Cert.KernelIdeal.Gen Idealize.ShloMosaic Idealize.ShloMosaic.TcCoe

/-- The source node of every edge: row 0 of the edge array as a list. -/
def src (ei : IVec S2x1600000 32) : IVec S1600000 32 :=
  shapeCast _ (extractStridedSlice S1x1600000 ![0, 0] ei slices_S2x1600000_S1x1600000_0_0) shapeCasts_S1x1600000_S1600000

/-- The destination node of every edge: row 1 of the edge array as a list. -/
def dst (ei : IVec S2x1600000 32) : IVec S1600000 32 :=
  shapeCast _ (extractStridedSlice S1x1600000 ![1, 0] ei slices_S2x1600000_S1x1600000_1_0) shapeCasts_S1x1600000_S1600000

/-- The neighbour aggregate of h: rows of h gathered at the edge sources, added into zeros at the edge destinations. -/
def aggregate (s d : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector laid out as a 1 × 64 row. -/
def row (b : FVec Ideal S64 .f32) : FVec Ideal S1x64 .f32 := shapeCast _ b shapeCasts_S64_S1x64

/-- The read-out: node rows added into 256 graph slots by the batch vector, times the head, plus the head's bias. -/
def readout (bt : IVec S100000 32) (fw : FVec Ideal S64x1 .f32) (fb : FVec Ideal S1 .f32) (h : FVec Ideal S100000x64 .f32) :
    FVec Ideal S256x1 .f32 :=
  addf (Host.dotGeneral dot_S256x64_S64x1_S256x1_1_0_0_1_n_n none
      (Host.scatterAdd scatter_S256x64_S100000x1_S100000x64_1_0_0_1
        (broadcastInDim S256x64 ![] bcast_S_S256x64 (constant (F := Ideal) S_ .f32 0x00000000#32))
        (broadcastInDim S100000x1 ![0] bcast_S100000_S100000x1_0 bt) h) fw)
    (broadcastInDim S256x1 ![0, 1] bcast_S1x1_S256x1_0_1 (broadcastInDim S1x1 ![1] bcast_S1_S1x1_1 fb))

/-- One rectified layer with its aggregation. -/
def stepRelu (s d : IVec S1600000 32) (h : FVec Ideal S100000x64 .f32) (w1 : FVec Ideal S64x64 .f32) (b1 : FVec Ideal S64 .f32)
    (w2 : FVec Ideal S64x64 .f32) (b2 : FVec Ideal S64 .f32) : FVec Ideal S100000x64 .f32 :=
  GinSpec.layerRelu h (aggregate s d h) w1 (row b1) w2 (row b2)

/-- The last layer with its aggregation: no final rectifier. -/
def stepLin (s d : IVec S1600000 32) (h : FVec Ideal S100000x64 .f32) (w1 : FVec Ideal S64x64 .f32) (b1 : FVec Ideal S64 .f32)
    (w2 : FVec Ideal S64x64 .f32) (b2 : FVec Ideal S64 .f32) : FVec Ideal S100000x64 .f32 :=
  GinSpec.layerLin h (aggregate s d h) w1 (row b1) w2 (row b2)

/-- The network: three layers and the read-out. -/
def net (x : FVec Ideal S100000x64 .f32) (ei : IVec S2x1600000 32) (bt : IVec S100000 32)
    (w01 : FVec Ideal S64x64 .f32) (b01 : FVec Ideal S64 .f32) (w02 : FVec Ideal S64x64 .f32) (b02 : FVec Ideal S64 .f32)
    (w11 : FVec Ideal S64x64 .f32) (b11 : FVec Ideal S64 .f32) (w12 : FVec Ideal S64x64 .f32) (b12 : FVec Ideal S64 .f32)
    (w21 : FVec Ideal S64x64 .f32) (b21 : FVec Ideal S64 .f32) (w22 : FVec Ideal S64x64 .f32) (b22 : FVec Ideal S64 .f32)
    (fw : FVec Ideal S64x1 .f32) (fb : FVec Ideal S1 .f32) : FVec Ideal S256x1 .f32 :=
  readout bt fw fb
    (stepLin (src ei) (dst ei)
      (stepRelu (src ei) (dst ei) (stepRelu (src ei) (dst ei) x w01 b01 w02 b02) w11 b11 w12 b12) w21 b21 w22 b22)

end Cert.KernelIdeal.Net

end
-- ==== Proof.TileProduct.lean ====
/-
  The tile's matrix product read at an entry.  A 5000 × 64 tile times a 64 × 64 matrix, accumulated from zero, has at
  (p, q) the sum over the shared axis k of left(p, k) · right(k, q): the contraction record's left index at (p, q), k
  is (p, k), its right index is (k, q).
-/
import proofs.«142037_j66022237274356_1_alg».proof.Proof.Gen.KernelIdeal
import Idealize.ShloMosaic.Lib.ValueIdx
import Idealize.ShloMosaic.PureOps.Ideal.Laws

noncomputable section

namespace Cert.KernelIdeal.Layer

open Cert.KernelIdeal Cert.KernelIdeal.Gen Idealize.ShloMosaic Idealize.ShloMosaic.TcCoe Idealize.ShloMosaic.ValueIdx

theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k

theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k

theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the tile's product from a zero accumulator is Σ_k left(p, k) · right(k, q). -/
theorem tileProduct_apply {φ₁ φ₂ : FTy} (l : FVec Ideal S5000x64 φ₁) (r : FVec Ideal S64x64 φ₂) (p : Fin 5000) (q : Fin 64) :
    FloatOps.matmul dot_S5000x64_S64x64_S5000x64_1_0_0_1_n_n none l r (constant (F := Ideal) S5000x64 .f32 0x00000000#32) (ix2 p q)
      = ∑ k : Fin 64, l (ix2 p k) * r (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

end Cert.KernelIdeal.Layer

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.TileLayer.lean ====
/-
  The body of each of the three tiled regions, read as arithmetic on the extended reals.  On a tile of 5000 rows the
  body adds the feature tile and the aggregate tile, multiplies by W₁, adds the bias row b₁ to every row, rectifies,
  multiplies by W₂, adds b₂ to every row, and (in the first two regions) rectifies again.  Narrowing to bf16 and the
  identity shape casts do nothing on the extended reals, and a matrix product accumulated from zero is the plain sum
  over the shared axis, so entry (p, q) of the body's result is exactly the layer of the specification on the tile.
-/
import proofs.«142037_j66022237274356_1_alg».proof.Proof.Gen.KernelIdeal.Skeleton
import proofs.«142037_j66022237274356_1_alg».proof.Proof.TileProduct
import proofs.«142037_j66022237274356_1_alg».proof.Proof.GinSpec
import proofs.«142037_j66022237274356_1_alg».proof.Proof.LibRank2Layout
import Idealize.ShloMosaic.Lib.Pipeline.Value

noncomputable section

namespace Cert.KernelIdeal.Layer

open Cert.KernelIdeal Cert.KernelIdeal.Gen Idealize.ShloMosaic Idealize.ShloMosaic.TcCoe Idealize.ShloMosaic.ValueIdx

/-- The rectifier's threshold, the zero word, is the real number zero. -/
theorem zero_word : Scalar.ofBits (F := Ideal) .f32 0x00000000#32 = (0 : EReal) := Ideal.ofBits_zero_f32

/-- Region 0's body arithmetic on a tile is the rectified layer of that tile. -/
theorem tile0_eq (x0 x1 : Vec Ideal S5000x64 .f32) (x2 : Vec Ideal S64x64 .f32) (x3 : Vec Ideal S1x64 .f32)
    (x4 : Vec Ideal S64x64 .f32) (x5 : Vec Ideal S1x64 .f32) :
    k0_pay1 (F := Ideal) x0 x1 x2 x3 x4 x5 = GinSpec.layerRelu x0 x1 x2 x3 x4 x5 := by
  funext j
  obtain ⟨p, q, rfl⟩ : ∃ (p : Fin 5000) (q : Fin 64), j = ix2 p q := ⟨j 0, j 1, eq_ix2 j⟩
  unfold k0_pay1
  simp only [shapeCast_self, matmul, maximumf_apply, addf_apply, truncf_apply, broadcast_apply, tileProduct_apply,
    Rank2.bcastRow_apply, zero_word, GinSpec.layerRelu_ix2, GinSpec.pre, GinSpec.hidden]

/-- Region 1's body arithmetic on a tile is the rectified layer of that tile. -/
theorem tile1_eq (x0 x1 : Vec Ideal S5000x64 .f32) (x2 : Vec Ideal S64x64 .f32) (x3 : Vec Ideal S1x64 .f32)
    (x4 : Vec Ideal S64x64 .f32) (x5 : Vec Ideal S1x64 .f32) :
    k1_pay1 (F := Ideal) x0 x1 x2 x3 x4 x5 = GinSpec.layerRelu x0 x1 x2 x3 x4 x5 := by
  funext j
  obtain ⟨p, q, rfl⟩ : ∃ (p : Fin 5000) (q : Fin 64), j = ix2 p q := ⟨j 0, j 1, eq_ix2 j⟩
  unfold k1_pay1
  simp only [shapeCast_self, matmul, maximumf_apply, addf_apply, truncf_apply, broadcast_apply, tileProduct_apply,
    Rank2.bcastRow_apply, zero_word, GinSpec.layerRelu_ix2, GinSpec.pre, GinSpec.hidden]

/-- Region 2's body arithmetic on a tile is the un-rectified layer of that tile. -/
theorem tile2_eq (x0 x1 : Vec Ideal S5000x64 .f32) (x2 : Vec Ideal S64x64 .f32) (x3 : Vec Ideal S1x64 .f32)
    (x4 : Vec Ideal S64x64 .f32) (x5 : Vec Ideal S1x64 .f32) :
    k2_pay1 (F := Ideal) x0 x1 x2 x3 x4 x5 = GinSpec.layerLin x0 x1 x2 x3 x4 x5 := by
  funext j
  obtain ⟨p, q, rfl⟩ : ∃ (p : Fin 5000) (q : Fin 64), j = ix2 p q := ⟨j 0, j 1, eq_ix2 j⟩
  unfold k2_pay1
  simp only [shapeCast_self, matmul, maximumf_apply, addf_apply, truncf_apply, broadcast_apply, tileProduct_apply,
    Rank2.bcastRow_apply, zero_word, GinSpec.layerLin_ix2, GinSpec.pre, GinSpec.hidden]

end Cert.KernelIdeal.Layer

end
-- ==== Proof.Region0.lean ====
/-
  Region 0 as one function of whole arrays.

  The region runs the layer's body on 20 tiles of 5000 rows.  At grid point t the feature window and the aggregate
  window hold rows 5000·t … 5000·t + 4999 of their arrays, the two weight windows and the two bias windows hold their
  whole arrays, and the output window's block is written back to rows 5000·t … 5000·t + 4999 of the result.  Since a
  row of the layer depends only on the same row of the features and aggregates, what point t writes back is block t
  of the whole-array layer; the 20 blocks cover every row, so the result array is the whole-array layer of the arrays
  the region was entered with.
-/
import proofs.«142037_j66022237274356_1_alg».proof.Proof.Gen.KernelIdeal.Frame
import proofs.«142037_j66022237274356_1_alg».proof.Proof.TileLayer
import Idealize.ShloMosaic.Lib.Pipeline.Value

set_option maxRecDepth 16384

noncomputable section

namespace Cert.KernelIdeal.Region0

open Cert.KernelIdeal Cert.KernelIdeal.Gen Cert.KernelIdeal.Layer Idealize.ShloMosaic Idealize.ShloMosaic.TcCoe
open Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 grid points: the feature, aggregate and output windows sit at block (t, 0),
    the weight and bias windows at block (0, 0). -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 20 :=
  (by decide +kernel : ∀ t : Fin grid0.N, _)

/-- Every block row 0 … 19 is some point's output block. -/
theorem index_onto : ∀ r : Fin 20, ∃ t : Fin cfg0.N, win0_6.index t = ![r.val, 0] :=
  (by decide +kernel : ∀ r : Fin 20, ∃ t : Fin grid0.N, win0_6.index t = ![r.val, 0])

/-- Window 2's block is its whole array at every point. -/
theorem whole2 (c : Dev nD) (t : Fin cfg0.N) : iblk0 V c 2 t = V c main_arg3 := by
  obtain ⟨-, -, -, -, e20, e21, e30, e31, e40, e41, e50, e51, -, -, -⟩ := index_facts t
  funext (y : S64x64.Idx)
  show V c main_arg3 (((cfg0.win 2).blk t).view.emb y) = V c main_arg3 y
  refine congrArg (V c main_arg3) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block is its whole array at every point. -/
theorem whole3 (c : Dev nD) (t : Fin cfg0.N) : iblk0 V c 3 t = V c main_v14 := by
  obtain ⟨-, -, -, -, e20, e21, e30, e31, e40, e41, e50, e51, -, -, -⟩ := index_facts t
  funext (y : S1x64.Idx)
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block is its whole array at every point. -/
theorem whole4 (c : Dev nD) (t : Fin cfg0.N) : iblk0 V c 4 t = V c main_arg5 := by
  obtain ⟨-, -, -, -, e20, e21, e30, e31, e40, e41, e50, e51, -, -, -⟩ := index_facts t
  funext (y : S64x64.Idx)
  show V c main_arg5 (((cfg0.win 4).blk t).view.emb y) = V c main_arg5 y
  refine congrArg (V c main_arg5) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block is its whole array at every point. -/
theorem whole5 (c : Dev nD) (t : Fin cfg0.N) : iblk0 V c 5 t = V c main_v15 := by
  obtain ⟨-, -, -, -, e20, e21, e30, e31, e40, e41, e50, e51, -, -, -⟩ := index_facts t
  funext (y : S1x64.Idx)
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Row p of window 0's block at point t is row 5000·t + p of its array. -/
theorem rows0 (c : Dev nD) (t : Fin cfg0.N) (p : Fin 5000) (j : Fin 64) (P : Fin 100000) (hP : P.val = t.val * 5000 + p.val) :
    iblk0 V c 0 t (ix2 p j) = V c main_arg0 (ix2 P j) := by
  obtain ⟨e00, e01, e10, e11, -, -, -, -, -, -, -, -, -, -, -⟩ := index_facts t
  show V c main_arg0 (((cfg0.win 0).blk t).view.emb (ix2 p j)) = V c main_arg0 (ix2 P j)
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 64 + 1 * j.val = j.val; omega

/-- Row p of window 1's block at point t is row 5000·t + p of its array. -/
theorem rows1 (c : Dev nD) (t : Fin cfg0.N) (p : Fin 5000) (j : Fin 64) (P : Fin 100000) (hP : P.val = t.val * 5000 + p.val) :
    iblk0 V c 1 t (ix2 p j) = V c main_v13 (ix2 P j) := by
  obtain ⟨e00, e01, e10, e11, -, -, -, -, -, -, -, -, -, -, -⟩ := index_facts t
  show V c main_v13 (((cfg0.win 1).blk t).view.emb (ix2 p j)) = V c main_v13 (ix2 P j)
  refine congrArg (V c main_v13) (funext fun a => Fin.ext ?_)
  match a with
  | ⟨0, _⟩ => show win0_1.index t (0 : Fin 2) * 5000 + 1 * p.val = P.val; omega
  | ⟨1, _⟩ => show win0_1.index t (1 : Fin 2) * 64 + 1 * j.val = j.val; omega

/-- What point t writes back is block t of the whole-array layer of the arrays the region was entered with. -/
theorem flushed_eq (c : Dev nD) (t : Fin cfg0.N) :
    (dat0 V c).flushed 6 t = ((cfg0.win 6).blk t).view.read (Elt Ideal) (GinSpec.layerRelu (V c main_arg0) (V c main_v13) (V c main_arg3) (V c main_v14) (V c main_arg5) (V c main_v15)) := by
  show (cfg0.win 6).cut (grid0.coords t) ((dat0 V c).after 6 t) = _
  rw [after0_6]
  unfold out0_6
  rw [View.canon_unit_zero origin]
  simp only [View.ld_unit_zero (S := S5000x64) origin, View.ld_unit_zero (S := S64x64) origin, View.ld_unit_zero (S := S1x64) origin]
  rw [tile0_eq, whole2 V c t, whole3 V c t, whole4 V c t, whole5 V c t]
  obtain ⟨-, -, -, -, -, -, -, -, -, -, -, -, e60, e61, ht⟩ := index_facts t
  funext (y : S5000x64.Idx)
  obtain ⟨p, q, rfl⟩ : ∃ (p : Fin 5000) (q : Fin 64), y = ix2 p q := ⟨y 0, y 1, eq_ix2 y⟩
  have hemb : ((cfg0.win 6).blk t).view.emb (ix2 p q) = ix2 (⟨t.val * 5000 + p.val, by have := p.isLt; omega⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  show GinSpec.layerRelu (iblk0 V c 0 t) (iblk0 V c 1 t) (V c main_arg3) (V c main_v14) (V c main_arg5) (V c main_v15) (ix2 p q)
    = GinSpec.layerRelu (V c main_arg0) (V c main_v13) (V c main_arg3) (V c main_v14) (V c main_arg5) (V c main_v15) (((cfg0.win 6).blk t).view.emb (ix2 p q))
  rw [hemb]
  exact GinSpec.layerRelu_of_rows (V c main_arg0) (V c main_v13) (iblk0 V c 0 t) (iblk0 V c 1 t) (V c main_arg3) (V c main_v14) (V c main_arg5) (V c main_v15) _ p
    (fun j => rows0 V c t p j _ rfl) (fun j => rows1 V c t p j _ rfl) q

/-- An index of the result array is in point t's block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every index of the result array lies in the block of the point t = row / 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The result array after the region: the whole-array layer of the arrays the region was entered with. -/
theorem final (c : Dev nD) : (dat0 V c).arrAt 6 cfg0.N = (GinSpec.layerRelu (V c main_arg0) (V c main_v13) (V c main_arg3) (V c main_v14) (V c main_arg5) (V c main_v15)) :=
  (dat0 V c).arrAt_eq_of_cover 6 _ (fun t _ => flushed_eq V c t) cover

end Cert.KernelIdeal.Region0

end
-- ==== Proof.Region1.lean ====
/-
  Region 1 as one function of whole arrays.

  The region runs the layer's body on 20 tiles of 5000 rows.  At grid point t the feature window and the aggregate
  window hold rows 5000·t … 5000·t + 4999 of their arrays, the two weight windows and the two bias windows hold their
  whole arrays, and the output window's block is written back to rows 5000·t … 5000·t + 4999 of the result.  Since a
  row of the layer depends only on the same row of the features and aggregates, what point t writes back is block t
  of the whole-array layer; the 20 blocks cover every row, so the result array is the whole-array layer of the arrays
  the region was entered with.
-/
import proofs.«142037_j66022237274356_1_alg».proof.Proof.Gen.KernelIdeal.Frame
import proofs.«142037_j66022237274356_1_alg».proof.Proof.TileLayer
import Idealize.ShloMosaic.Lib.Pipeline.Value

set_option maxRecDepth 16384

noncomputable section

namespace Cert.KernelIdeal.Region1

open Cert.KernelIdeal Cert.KernelIdeal.Gen Cert.KernelIdeal.Layer Idealize.ShloMosaic Idealize.ShloMosaic.TcCoe
open Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 grid points: the feature, aggregate and output windows sit at block (t, 0),
    the weight and bias windows at block (0, 0). -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 20 :=
  (by decide +kernel : ∀ t : Fin grid1.N, _)

/-- Every block row 0 … 19 is some point's output block. -/
theorem index_onto : ∀ r : Fin 20, ∃ t : Fin cfg1.N, win1_6.index t = ![r.val, 0] :=
  (by decide +kernel : ∀ r : Fin 20, ∃ t : Fin grid1.N, win1_6.index t = ![r.val, 0])

/-- Window 2's block is its whole array at every point. -/
theorem whole2 (c : Dev nD) (t : Fin cfg1.N) : iblk1 V c 2 t = V c main_arg7 := by
  obtain ⟨-, -, -, -, e20, e21, e30, e31, e40, e41, e50, e51, -, -, -⟩ := index_facts t
  funext (y : S64x64.Idx)
  show V c main_arg7 (((cfg1.win 2).blk t).view.emb y) = V c main_arg7 y
  refine congrArg (V c main_arg7) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block is its whole array at every point. -/
theorem whole3 (c : Dev nD) (t : Fin cfg1.N) : iblk1 V c 3 t = V c main_v27 := by
  obtain ⟨-, -, -, -, e20, e21, e30, e31, e40, e41, e50, e51, -, -, -⟩ := index_facts t
  funext (y : S1x64.Idx)
  show V c main_v27 (((cfg1.win 3).blk t).view.emb y) = V c main_v27 y
  refine congrArg (V c main_v27) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block is its whole array at every point. -/
theorem whole4 (c : Dev nD) (t : Fin cfg1.N) : iblk1 V c 4 t = V c main_arg9 := by
  obtain ⟨-, -, -, -, e20, e21, e30, e31, e40, e41, e50, e51, -, -, -⟩ := index_facts t
  funext (y : S64x64.Idx)
  show V c main_arg9 (((cfg1.win 4).blk t).view.emb y) = V c main_arg9 y
  refine congrArg (V c main_arg9) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's block is its whole array at every point. -/
theorem whole5 (c : Dev nD) (t : Fin cfg1.N) : iblk1 V c 5 t = V c main_v28 := by
  obtain ⟨-, -, -, -, e20, e21, e30, e31, e40, e41, e50, e51, -, -, -⟩ := index_facts t
  funext (y : S1x64.Idx)
  show V c main_v28 (((cfg1.win 5).blk t).view.emb y) = V c main_v28 y
  refine congrArg (V c main_v28) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Row p of window 0's block at point t is row 5000·t + p of its array. -/
theorem rows0 (c : Dev nD) (t : Fin cfg1.N) (p : Fin 5000) (j : Fin 64) (P : Fin 100000) (hP : P.val = t.val * 5000 + p.val) :
    iblk1 V c 0 t (ix2 p j) = V c main_v16 (ix2 P j) := by
  obtain ⟨e00, e01, e10, e11, -, -, -, -, -, -, -, -, -, -, -⟩ := index_facts t
  show V c main_v16 (((cfg1.win 0).blk t).view.emb (ix2 p j)) = V c main_v16 (ix2 P j)
  refine congrArg (V c main_v16) (funext fun a => Fin.ext ?_)
  match a with
  | ⟨0, _⟩ => show win1_0.index t (0 : Fin 2) * 5000 + 1 * p.val = P.val; omega
  | ⟨1, _⟩ => show win1_0.index t (1 : Fin 2) * 64 + 1 * j.val = j.val; omega

/-- Row p of window 1's block at point t is row 5000·t + p of its array. -/
theorem rows1 (c : Dev nD) (t : Fin cfg1.N) (p : Fin 5000) (j : Fin 64) (P : Fin 100000) (hP : P.val = t.val * 5000 + p.val) :
    iblk1 V c 1 t (ix2 p j) = V c main_v26 (ix2 P j) := by
  obtain ⟨e00, e01, e10, e11, -, -, -, -, -, -, -, -, -, -, -⟩ := index_facts t
  show V c main_v26 (((cfg1.win 1).blk t).view.emb (ix2 p j)) = V c main_v26 (ix2 P j)
  refine congrArg (V c main_v26) (funext fun a => Fin.ext ?_)
  match a with
  | ⟨0, _⟩ => show win1_1.index t (0 : Fin 2) * 5000 + 1 * p.val = P.val; omega
  | ⟨1, _⟩ => show win1_1.index t (1 : Fin 2) * 64 + 1 * j.val = j.val; omega

/-- What point t writes back is block t of the whole-array layer of the arrays the region was entered with. -/
theorem flushed_eq (c : Dev nD) (t : Fin cfg1.N) :
    (dat1 V c).flushed 6 t = ((cfg1.win 6).blk t).view.read (Elt Ideal) (GinSpec.layerRelu (V c main_v16) (V c main_v26) (V c main_arg7) (V c main_v27) (V c main_arg9) (V c main_v28)) := by
  show (cfg1.win 6).cut (grid1.coords t) ((dat1 V c).after 6 t) = _
  rw [after1_6]
  unfold out1_6
  rw [View.canon_unit_zero origin]
  simp only [View.ld_unit_zero (S := S5000x64) origin, View.ld_unit_zero (S := S64x64) origin, View.ld_unit_zero (S := S1x64) origin]
  rw [tile1_eq, whole2 V c t, whole3 V c t, whole4 V c t, whole5 V c t]
  obtain ⟨-, -, -, -, -, -, -, -, -, -, -, -, e60, e61, ht⟩ := index_facts t
  funext (y : S5000x64.Idx)
  obtain ⟨p, q, rfl⟩ : ∃ (p : Fin 5000) (q : Fin 64), y = ix2 p q := ⟨y 0, y 1, eq_ix2 y⟩
  have hemb : ((cfg1.win 6).blk t).view.emb (ix2 p q) = ix2 (⟨t.val * 5000 + p.val, by have := p.isLt; omega⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  show GinSpec.layerRelu (iblk1 V c 0 t) (iblk1 V c 1 t) (V c main_arg7) (V c main_v27) (V c main_arg9) (V c main_v28) (ix2 p q)
    = GinSpec.layerRelu (V c main_v16) (V c main_v26) (V c main_arg7) (V c main_v27) (V c main_arg9) (V c main_v28) (((cfg1.win 6).blk t).view.emb (ix2 p q))
  rw [hemb]
  exact GinSpec.layerRelu_of_rows (V c main_v16) (V c main_v26) (iblk1 V c 0 t) (iblk1 V c 1 t) (V c main_arg7) (V c main_v27) (V c main_arg9) (V c main_v28) _ p
    (fun j => rows0 V c t p j _ rfl) (fun j => rows1 V c t p j _ rfl) q

/-- An index of the result array is in point t's block iff each coordinate is in the block's range on its axis. -/
theorem mem_block (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every index of the result array lies in the block of the point t = row / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The result array after the region: the whole-array layer of the arrays the region was entered with. -/
theorem final (c : Dev nD) : (dat1 V c).arrAt 6 cfg1.N = (GinSpec.layerRelu (V c main_v16) (V c main_v26) (V c main_arg7) (V c main_v27) (V c main_arg9) (V c main_v28)) :=
  (dat1 V c).arrAt_eq_of_cover 6 _ (fun t _ => flushed_eq V c t) cover

end Cert.KernelIdeal.Region1

end
-- ==== Proof.Region2.lean ====
/-
  Region 2 as one function of whole arrays.

  The region runs the layer's body on 20 tiles of 5000 rows.  At grid point t the feature window and the aggregate
  window hold rows 5000·t … 5000·t + 4999 of their arrays, the two weight windows and the two bias windows hold their
  whole arrays, and the output window's block is written back to rows 5000·t … 5000·t + 4999 of the result.  Since a
  row of the layer depends only on the same row of the features and aggregates, what point t writes back is block t
  of the whole-array layer; the 20 blocks cover every row, so the result array is the whole-array layer of the arrays
  the region was entered with.
-/
import proofs.«142037_j66022237274356_1_alg».proof.Proof.Gen.KernelIdeal.Frame
import proofs.«142037_j66022237274356_1_alg».proof.Proof.TileLayer
import Idealize.ShloMosaic.Lib.Pipeline.Value

set_option maxRecDepth 16384

noncomputable section

namespace Cert.KernelIdeal.Region2

open Cert.KernelIdeal Cert.KernelIdeal.Gen Cert.KernelIdeal.Layer Idealize.ShloMosaic Idealize.ShloMosaic.TcCoe
open Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 20 grid points: the feature, aggregate and output windows sit at block (t, 0),
    the weight and bias windows at block (0, 0). -/
theorem index_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 20 :=
  (by decide +kernel : ∀ t : Fin grid2.N, _)

/-- Every block row 0 … 19 is some point's output block. -/
theorem index_onto : ∀ r : Fin 20, ∃ t : Fin cfg2.N, win2_6.index t = ![r.val, 0] :=
  (by decide +kernel : ∀ r : Fin 20, ∃ t : Fin grid2.N, win2_6.index t = ![r.val, 0])

/-- Window 2's block is its whole array at every point. -/
theorem whole2 (c : Dev nD) (t : Fin cfg2.N) : iblk2 V c 2 t = V c main_arg11 := by
  obtain ⟨-, -, -, -, e20, e21, e30, e31, e40, e41, e50, e51, -, -, -⟩ := index_facts t
  funext (y : S64x64.Idx)
  show V c main_arg11 (((cfg2.win 2).blk t).view.emb y) = V c main_arg11 y
  refine congrArg (V c main_arg11) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block is its whole array at every point. -/
theorem whole3 (c : Dev nD) (t : Fin cfg2.N) : iblk2 V c 3 t = V c main_v40 := by
  obtain ⟨-, -, -, -, e20, e21, e30, e31, e40, e41, e50, e51, -, -, -⟩ := index_facts t
  funext (y : S1x64.Idx)
  show V c main_v40 (((cfg2.win 3).blk t).view.emb y) = V c main_v40 y
  refine congrArg (V c main_v40) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Window 4's block is its whole array at every point. -/
theorem whole4 (c : Dev nD) (t : Fin cfg2.N) : iblk2 V c 4 t = V c main_arg13 := by
  obtain ⟨-, -, -, -, e20, e21, e30, e31, e40, e41, e50, e51, -, -, -⟩ := index_facts t
  funext (y : S64x64.Idx)
  show V c main_arg13 (((cfg2.win 4).blk t).view.emb y) = V c main_arg13 y
  refine congrArg (V c main_arg13) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Window 5's block is its whole array at every point. -/
theorem whole5 (c : Dev nD) (t : Fin cfg2.N) : iblk2 V c 5 t = V c main_v41 := by
  obtain ⟨-, -, -, -, e20, e21, e30, e31, e40, e41, e50, e51, -, -, -⟩ := index_facts t
  funext (y : S1x64.Idx)
  show V c main_v41 (((cfg2.win 5).blk t).view.emb y) = V c main_v41 y
  refine congrArg (V c main_v41) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- Row p of window 0's block at point t is row 5000·t + p of its array. -/
theorem rows0 (c : Dev nD) (t : Fin cfg2.N) (p : Fin 5000) (j : Fin 64) (P : Fin 100000) (hP : P.val = t.val * 5000 + p.val) :
    iblk2 V c 0 t (ix2 p j) = V c main_v29 (ix2 P j) := by
  obtain ⟨e00, e01, e10, e11, -, -, -, -, -, -, -, -, -, -, -⟩ := index_facts t
  show V c main_v29 (((cfg2.win 0).blk t).view.emb (ix2 p j)) = V c main_v29 (ix2 P j)
  refine congrArg (V c main_v29) (funext fun a => Fin.ext ?_)
  match a with
  | ⟨0, _⟩ => show win2_0.index t (0 : Fin 2) * 5000 + 1 * p.val = P.val; omega
  | ⟨1, _⟩ => show win2_0.index t (1 : Fin 2) * 64 + 1 * j.val = j.val; omega

/-- Row p of window 1's block at point t is row 5000·t + p of its array. -/
theorem rows1 (c : Dev nD) (t : Fin cfg2.N) (p : Fin 5000) (j : Fin 64) (P : Fin 100000) (hP : P.val = t.val * 5000 + p.val) :
    iblk2 V c 1 t (ix2 p j) = V c main_v39 (ix2 P j) := by
  obtain ⟨e00, e01, e10, e11, -, -, -, -, -, -, -, -, -, -, -⟩ := index_facts t
  show V c main_v39 (((cfg2.win 1).blk t).view.emb (ix2 p j)) = V c main_v39 (ix2 P j)
  refine congrArg (V c main_v39) (funext fun a => Fin.ext ?_)
  match a with
  | ⟨0, _⟩ => show win2_1.index t (0 : Fin 2) * 5000 + 1 * p.val = P.val; omega
  | ⟨1, _⟩ => show win2_1.index t (1 : Fin 2) * 64 + 1 * j.val = j.val; omega

/-- What point t writes back is block t of the whole-array layer of the arrays the region was entered with. -/
theorem flushed_eq (c : Dev nD) (t : Fin cfg2.N) :
    (dat2 V c).flushed 6 t = ((cfg2.win 6).blk t).view.read (Elt Ideal) (GinSpec.layerLin (V c main_v29) (V c main_v39) (V c main_arg11) (V c main_v40) (V c main_arg13) (V c main_v41)) := by
  show (cfg2.win 6).cut (grid2.coords t) ((dat2 V c).after 6 t) = _
  rw [after2_6]
  unfold out2_6
  rw [View.canon_unit_zero origin]
  simp only [View.ld_unit_zero (S := S5000x64) origin, View.ld_unit_zero (S := S64x64) origin, View.ld_unit_zero (S := S1x64) origin]
  rw [tile2_eq, whole2 V c t, whole3 V c t, whole4 V c t, whole5 V c t]
  obtain ⟨-, -, -, -, -, -, -, -, -, -, -, -, e60, e61, ht⟩ := index_facts t
  funext (y : S5000x64.Idx)
  obtain ⟨p, q, rfl⟩ : ∃ (p : Fin 5000) (q : Fin 64), y = ix2 p q := ⟨y 0, y 1, eq_ix2 y⟩
  have hemb : ((cfg2.win 6).blk t).view.emb (ix2 p q) = ix2 (⟨t.val * 5000 + p.val, by have := p.isLt; omega⟩ : Fin 100000) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  show GinSpec.layerLin (iblk2 V c 0 t) (iblk2 V c 1 t) (V c main_arg11) (V c main_v40) (V c main_arg13) (V c main_v41) (ix2 p q)
    = GinSpec.layerLin (V c main_v29) (V c main_v39) (V c main_arg11) (V c main_v40) (V c main_arg13) (V c main_v41) (((cfg2.win 6).blk t).view.emb (ix2 p q))
  rw [hemb]
  exact GinSpec.layerLin_of_rows (V c main_v29) (V c main_v39) (iblk2 V c 0 t) (iblk2 V c 1 t) (V c main_arg11) (V c main_v40) (V c main_arg13) (V c main_v41) _ p
    (fun j => rows0 V c t p j _ rfl) (fun j => rows1 V c t p j _ rfl) q

/-- An index of the result array is in point t's block iff each coordinate is in the block's range on its axis. -/
theorem mem_block (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v42).slice (win2_6.rect t)).set ↔ _
  rw [View.set_slice_whole, Rect.mem_set_unit]
  exact Iff.rfl

/-- Every index of the result array lies in the block of the point t = row / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := index_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The result array after the region: the whole-array layer of the arrays the region was entered with. -/
theorem final (c : Dev nD) : (dat2 V c).arrAt 6 cfg2.N = (GinSpec.layerLin (V c main_v29) (V c main_v39) (V c main_arg11) (V c main_v40) (V c main_arg13) (V c main_v41)) :=
  (dat2 V c).arrAt_eq_of_cover 6 _ (fun t _ => flushed_eq V c t) cover

end Cert.KernelIdeal.Region2

end
-- ==== Proof.Boundary.lean ====
/-
  The contents of the buffers at each boundary of the program, walked from the launch memory to the result.

  The program is: a stretch of host operations (edge lists, the first aggregate, two bias rows), region 0, a stretch
  (aggregate of region 0's result, two bias rows), region 1, a stretch (aggregate, rows), region 2, and the read-out.
  A buffer that no operation of a stretch writes and that is not an array of a region keeps its contents across it; an
  operation's result buffer holds the operation's function of its operands' contents; a region's result array holds the
  whole-array layer of the arrays the region was entered with.  Composing these facts, the result buffer ends holding
  the network of the launch contents of the arguments.
-/
import proofs.«142037_j66022237274356_1_alg».proof.Proof.Gen.KernelIdeal.Frame
import proofs.«142037_j66022237274356_1_alg».proof.Proof.Network
import proofs.«142037_j66022237274356_1_alg».proof.Proof.Region0
import proofs.«142037_j66022237274356_1_alg».proof.Proof.Region1
import proofs.«142037_j66022237274356_1_alg».proof.Proof.Region2

set_option maxRecDepth 16384

noncomputable section

namespace Cert.KernelIdeal.Boundary

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The argument arrays keep their launch contents up to each boundary where they are read -/

theorem arg0_at1 : W1 m ρ c (Proc.devRef .tc main_arg0) = (m ((c : Thread nD τ).loc main_arg0)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem arg3_at1 : W1 m ρ c (Proc.devRef .tc main_arg3) = (m ((c : Thread nD τ).loc main_arg3)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem arg5_at1 : W1 m ρ c (Proc.devRef .tc main_arg5) = (m ((c : Thread nD τ).loc main_arg5)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem arg8_at1 : W1 m ρ c (Proc.devRef .tc main_arg8) = (m ((c : Thread nD τ).loc main_arg8)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg8_at2 : W2 m ρ c (Proc.devRef .tc main_arg8) = (m ((c : Thread nD τ).loc main_arg8)) := (W2_of_ne m ρ c main_arg8 (by decide)).trans (arg8_at1 m ρ c)

theorem arg10_at1 : W1 m ρ c (Proc.devRef .tc main_arg10) = (m ((c : Thread nD τ).loc main_arg10)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg10_at2 : W2 m ρ c (Proc.devRef .tc main_arg10) = (m ((c : Thread nD τ).loc main_arg10)) := (W2_of_ne m ρ c main_arg10 (by decide)).trans (arg10_at1 m ρ c)

theorem arg7_at1 : W1 m ρ c (Proc.devRef .tc main_arg7) = (m ((c : Thread nD τ).loc main_arg7)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg7_at2 : W2 m ρ c (Proc.devRef .tc main_arg7) = (m ((c : Thread nD τ).loc main_arg7)) := (W2_of_ne m ρ c main_arg7 (by decide)).trans (arg7_at1 m ρ c)
theorem arg7_at3 : W3 m ρ c (Proc.devRef .tc main_arg7) = (m ((c : Thread nD τ).loc main_arg7)) :=
  (show W3 m ρ c (Proc.devRef .tc main_arg7) = W2 m ρ c (Proc.devRef .tc main_arg7) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg7_at2 m ρ c)

theorem arg9_at1 : W1 m ρ c (Proc.devRef .tc main_arg9) = (m ((c : Thread nD τ).loc main_arg9)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg9_at2 : W2 m ρ c (Proc.devRef .tc main_arg9) = (m ((c : Thread nD τ).loc main_arg9)) := (W2_of_ne m ρ c main_arg9 (by decide)).trans (arg9_at1 m ρ c)
theorem arg9_at3 : W3 m ρ c (Proc.devRef .tc main_arg9) = (m ((c : Thread nD τ).loc main_arg9)) :=
  (show W3 m ρ c (Proc.devRef .tc main_arg9) = W2 m ρ c (Proc.devRef .tc main_arg9) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg9_at2 m ρ c)

theorem arg12_at1 : W1 m ρ c (Proc.devRef .tc main_arg12) = (m ((c : Thread nD τ).loc main_arg12)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg12_at2 : W2 m ρ c (Proc.devRef .tc main_arg12) = (m ((c : Thread nD τ).loc main_arg12)) := (W2_of_ne m ρ c main_arg12 (by decide)).trans (arg12_at1 m ρ c)
theorem arg12_at3 : W3 m ρ c (Proc.devRef .tc main_arg12) = (m ((c : Thread nD τ).loc main_arg12)) :=
  (show W3 m ρ c (Proc.devRef .tc main_arg12) = W2 m ρ c (Proc.devRef .tc main_arg12) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg12_at2 m ρ c)
theorem arg12_at4 : W4 m ρ c (Proc.devRef .tc main_arg12) = (m ((c : Thread nD τ).loc main_arg12)) := (W4_of_ne m ρ c main_arg12 (by decide)).trans (arg12_at3 m ρ c)

theorem arg14_at1 : W1 m ρ c (Proc.devRef .tc main_arg14) = (m ((c : Thread nD τ).loc main_arg14)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg14_at2 : W2 m ρ c (Proc.devRef .tc main_arg14) = (m ((c : Thread nD τ).loc main_arg14)) := (W2_of_ne m ρ c main_arg14 (by decide)).trans (arg14_at1 m ρ c)
theorem arg14_at3 : W3 m ρ c (Proc.devRef .tc main_arg14) = (m ((c : Thread nD τ).loc main_arg14)) :=
  (show W3 m ρ c (Proc.devRef .tc main_arg14) = W2 m ρ c (Proc.devRef .tc main_arg14) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg14_at2 m ρ c)
theorem arg14_at4 : W4 m ρ c (Proc.devRef .tc main_arg14) = (m ((c : Thread nD τ).loc main_arg14)) := (W4_of_ne m ρ c main_arg14 (by decide)).trans (arg14_at3 m ρ c)

theorem arg11_at1 : W1 m ρ c (Proc.devRef .tc main_arg11) = (m ((c : Thread nD τ).loc main_arg11)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg11_at2 : W2 m ρ c (Proc.devRef .tc main_arg11) = (m ((c : Thread nD τ).loc main_arg11)) := (W2_of_ne m ρ c main_arg11 (by decide)).trans (arg11_at1 m ρ c)
theorem arg11_at3 : W3 m ρ c (Proc.devRef .tc main_arg11) = (m ((c : Thread nD τ).loc main_arg11)) :=
  (show W3 m ρ c (Proc.devRef .tc main_arg11) = W2 m ρ c (Proc.devRef .tc main_arg11) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg11_at2 m ρ c)
theorem arg11_at4 : W4 m ρ c (Proc.devRef .tc main_arg11) = (m ((c : Thread nD τ).loc main_arg11)) := (W4_of_ne m ρ c main_arg11 (by decide)).trans (arg11_at3 m ρ c)
theorem arg11_at5 : W5 m ρ c (Proc.devRef .tc main_arg11) = (m ((c : Thread nD τ).loc main_arg11)) :=
  (show W5 m ρ c (Proc.devRef .tc main_arg11) = W4 m ρ c (Proc.devRef .tc main_arg11) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg11_at4 m ρ c)

theorem arg13_at1 : W1 m ρ c (Proc.devRef .tc main_arg13) = (m ((c : Thread nD τ).loc main_arg13)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg13_at2 : W2 m ρ c (Proc.devRef .tc main_arg13) = (m ((c : Thread nD τ).loc main_arg13)) := (W2_of_ne m ρ c main_arg13 (by decide)).trans (arg13_at1 m ρ c)
theorem arg13_at3 : W3 m ρ c (Proc.devRef .tc main_arg13) = (m ((c : Thread nD τ).loc main_arg13)) :=
  (show W3 m ρ c (Proc.devRef .tc main_arg13) = W2 m ρ c (Proc.devRef .tc main_arg13) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg13_at2 m ρ c)
theorem arg13_at4 : W4 m ρ c (Proc.devRef .tc main_arg13) = (m ((c : Thread nD τ).loc main_arg13)) := (W4_of_ne m ρ c main_arg13 (by decide)).trans (arg13_at3 m ρ c)
theorem arg13_at5 : W5 m ρ c (Proc.devRef .tc main_arg13) = (m ((c : Thread nD τ).loc main_arg13)) :=
  (show W5 m ρ c (Proc.devRef .tc main_arg13) = W4 m ρ c (Proc.devRef .tc main_arg13) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg13_at4 m ρ c)

theorem arg2_at1 : W1 m ρ c (Proc.devRef .tc main_arg2) = (m ((c : Thread nD τ).loc main_arg2)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg2_at2 : W2 m ρ c (Proc.devRef .tc main_arg2) = (m ((c : Thread nD τ).loc main_arg2)) := (W2_of_ne m ρ c main_arg2 (by decide)).trans (arg2_at1 m ρ c)
theorem arg2_at3 : W3 m ρ c (Proc.devRef .tc main_arg2) = (m ((c : Thread nD τ).loc main_arg2)) :=
  (show W3 m ρ c (Proc.devRef .tc main_arg2) = W2 m ρ c (Proc.devRef .tc main_arg2) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg2_at2 m ρ c)
theorem arg2_at4 : W4 m ρ c (Proc.devRef .tc main_arg2) = (m ((c : Thread nD τ).loc main_arg2)) := (W4_of_ne m ρ c main_arg2 (by decide)).trans (arg2_at3 m ρ c)
theorem arg2_at5 : W5 m ρ c (Proc.devRef .tc main_arg2) = (m ((c : Thread nD τ).loc main_arg2)) :=
  (show W5 m ρ c (Proc.devRef .tc main_arg2) = W4 m ρ c (Proc.devRef .tc main_arg2) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg2_at4 m ρ c)
theorem arg2_at6 : W6 m ρ c (Proc.devRef .tc main_arg2) = (m ((c : Thread nD τ).loc main_arg2)) := (W6_of_ne m ρ c main_arg2 (by decide)).trans (arg2_at5 m ρ c)

theorem arg15_at1 : W1 m ρ c (Proc.devRef .tc main_arg15) = (m ((c : Thread nD τ).loc main_arg15)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg15_at2 : W2 m ρ c (Proc.devRef .tc main_arg15) = (m ((c : Thread nD τ).loc main_arg15)) := (W2_of_ne m ρ c main_arg15 (by decide)).trans (arg15_at1 m ρ c)
theorem arg15_at3 : W3 m ρ c (Proc.devRef .tc main_arg15) = (m ((c : Thread nD τ).loc main_arg15)) :=
  (show W3 m ρ c (Proc.devRef .tc main_arg15) = W2 m ρ c (Proc.devRef .tc main_arg15) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg15_at2 m ρ c)
theorem arg15_at4 : W4 m ρ c (Proc.devRef .tc main_arg15) = (m ((c : Thread nD τ).loc main_arg15)) := (W4_of_ne m ρ c main_arg15 (by decide)).trans (arg15_at3 m ρ c)
theorem arg15_at5 : W5 m ρ c (Proc.devRef .tc main_arg15) = (m ((c : Thread nD τ).loc main_arg15)) :=
  (show W5 m ρ c (Proc.devRef .tc main_arg15) = W4 m ρ c (Proc.devRef .tc main_arg15) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg15_at4 m ρ c)
theorem arg15_at6 : W6 m ρ c (Proc.devRef .tc main_arg15) = (m ((c : Thread nD τ).loc main_arg15)) := (W6_of_ne m ρ c main_arg15 (by decide)).trans (arg15_at5 m ρ c)

theorem arg16_at1 : W1 m ρ c (Proc.devRef .tc main_arg16) = (m ((c : Thread nD τ).loc main_arg16)) :=
  (StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
theorem arg16_at2 : W2 m ρ c (Proc.devRef .tc main_arg16) = (m ((c : Thread nD τ).loc main_arg16)) := (W2_of_ne m ρ c main_arg16 (by decide)).trans (arg16_at1 m ρ c)
theorem arg16_at3 : W3 m ρ c (Proc.devRef .tc main_arg16) = (m ((c : Thread nD τ).loc main_arg16)) :=
  (show W3 m ρ c (Proc.devRef .tc main_arg16) = W2 m ρ c (Proc.devRef .tc main_arg16) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg16_at2 m ρ c)
theorem arg16_at4 : W4 m ρ c (Proc.devRef .tc main_arg16) = (m ((c : Thread nD τ).loc main_arg16)) := (W4_of_ne m ρ c main_arg16 (by decide)).trans (arg16_at3 m ρ c)
theorem arg16_at5 : W5 m ρ c (Proc.devRef .tc main_arg16) = (m ((c : Thread nD τ).loc main_arg16)) :=
  (show W5 m ρ c (Proc.devRef .tc main_arg16) = W4 m ρ c (Proc.devRef .tc main_arg16) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (arg16_at4 m ρ c)
theorem arg16_at6 : W6 m ρ c (Proc.devRef .tc main_arg16) = (m ((c : Thread nD τ).loc main_arg16)) := (W6_of_ne m ρ c main_arg16 (by decide)).trans (arg16_at5 m ρ c)

/-! ## The first stretch: the edge lists, the first aggregate, the first layer's bias rows -/

theorem src_at1 : W1 m ρ c (Proc.devRef .tc main_v1) = (Net.src (m ((c : Thread nD τ).loc main_arg1))) := by
  show StableHlo.after hostOps0 (W0 m ρ c) (Proc.devRef .tc main_v1) = _
  dsimp only [hostOps0]
  after_results
  rfl

theorem dst_at1 : W1 m ρ c (Proc.devRef .tc main_v3) = (Net.dst (m ((c : Thread nD τ).loc main_arg1))) := by
  show StableHlo.after hostOps0 (W0 m ρ c) (Proc.devRef .tc main_v3) = _
  dsimp only [hostOps0]
  after_results
  rfl

theorem agg_at1 : V1 m ρ c main_v13 = Net.aggregate (Net.src (m ((c : Thread nD τ).loc main_arg1))) (Net.dst (m ((c : Thread nD τ).loc main_arg1))) (m ((c : Thread nD τ).loc main_arg0)) := by
  show StableHlo.after hostOps0 (W0 m ρ c) (Proc.devRef .tc main_v13) = _
  dsimp only [hostOps0]
  after_results_simp
  rfl

theorem row1_at1 : V1 m ρ c main_v14 = Net.row (m ((c : Thread nD τ).loc main_arg4)) := by
  show StableHlo.after hostOps0 (W0 m ρ c) (Proc.devRef .tc main_v14) = _
  dsimp only [hostOps0]
  after_results
  rfl

theorem row2_at1 : V1 m ρ c main_v15 = Net.row (m ((c : Thread nD τ).loc main_arg6)) := by
  show StableHlo.after hostOps0 (W0 m ρ c) (Proc.devRef .tc main_v15) = _
  dsimp only [hostOps0]
  after_results
  rfl

/-! ## Region 0 and the second stretch -/

/-- Region 0's result array: the first rectified layer of the input features. -/
theorem h1_at2 : W2 m ρ c (Proc.devRef .tc main_v16) = (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) := by
  refine (W2_arr m ρ c 6).trans ((Region0.final (V1 m ρ) c).trans ?_)
  rw [agg_at1, row1_at1, row2_at1]
  show GinSpec.layerRelu (W1 m ρ c (Proc.devRef .tc main_arg0)) _ (W1 m ρ c (Proc.devRef .tc main_arg3)) _ (W1 m ρ c (Proc.devRef .tc main_arg5)) _ = _
  rw [arg0_at1, arg3_at1, arg5_at1]
  rfl

theorem src_at2 : W2 m ρ c (Proc.devRef .tc main_v1) = (Net.src (m ((c : Thread nD τ).loc main_arg1))) := (W2_of_ne m ρ c main_v1 (by decide)).trans (src_at1 m ρ c)
theorem dst_at2 : W2 m ρ c (Proc.devRef .tc main_v3) = (Net.dst (m ((c : Thread nD τ).loc main_arg1))) := (W2_of_ne m ρ c main_v3 (by decide)).trans (dst_at1 m ρ c)

theorem h1_at3 : V3 m ρ c main_v16 = (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) :=
  (show W3 m ρ c (Proc.devRef .tc main_v16) = W2 m ρ c (Proc.devRef .tc main_v16) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (h1_at2 m ρ c)

theorem agg_at3 : V3 m ρ c main_v26 = Net.aggregate (Net.src (m ((c : Thread nD τ).loc main_arg1))) (Net.dst (m ((c : Thread nD τ).loc main_arg1))) (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) := by
  show StableHlo.after hostOps1 (W2 m ρ c) (Proc.devRef .tc main_v26) = _
  dsimp only [hostOps1]
  after_results_simp
  rw [src_at2, dst_at2, h1_at2]
  rfl

theorem row1_at3 : V3 m ρ c main_v27 = Net.row (m ((c : Thread nD τ).loc main_arg8)) := by
  show StableHlo.after hostOps1 (W2 m ρ c) (Proc.devRef .tc main_v27) = _
  dsimp only [hostOps1]
  after_results
  rw [arg8_at2]
  rfl

theorem row2_at3 : V3 m ρ c main_v28 = Net.row (m ((c : Thread nD τ).loc main_arg10)) := by
  show StableHlo.after hostOps1 (W2 m ρ c) (Proc.devRef .tc main_v28) = _
  dsimp only [hostOps1]
  after_results
  rw [arg10_at2]
  rfl

theorem src_at3 : W3 m ρ c (Proc.devRef .tc main_v1) = (Net.src (m ((c : Thread nD τ).loc main_arg1))) :=
  (show W3 m ρ c (Proc.devRef .tc main_v1) = W2 m ρ c (Proc.devRef .tc main_v1) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (src_at2 m ρ c)
theorem dst_at3 : W3 m ρ c (Proc.devRef .tc main_v3) = (Net.dst (m ((c : Thread nD τ).loc main_arg1))) :=
  (show W3 m ρ c (Proc.devRef .tc main_v3) = W2 m ρ c (Proc.devRef .tc main_v3) from (StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (dst_at2 m ρ c)

/-! ## Region 1 and the third stretch -/

/-- Region 1's result array: the second rectified layer. -/
theorem h2_at4 : W4 m ρ c (Proc.devRef .tc main_v29) = (Net.stepRelu (Net.src (m ((c : Thread nD τ).loc main_arg1))) (Net.dst (m ((c : Thread nD τ).loc main_arg1))) (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) := by
  refine (W4_arr m ρ c 6).trans ((Region1.final (V3 m ρ) c).trans ?_)
  rw [h1_at3, agg_at3, row1_at3, row2_at3]
  show GinSpec.layerRelu _ _ (W3 m ρ c (Proc.devRef .tc main_arg7)) _ (W3 m ρ c (Proc.devRef .tc main_arg9)) _ = _
  rw [arg7_at3, arg9_at3]
  rfl

theorem src_at4 : W4 m ρ c (Proc.devRef .tc main_v1) = (Net.src (m ((c : Thread nD τ).loc main_arg1))) := (W4_of_ne m ρ c main_v1 (by decide)).trans (src_at3 m ρ c)
theorem dst_at4 : W4 m ρ c (Proc.devRef .tc main_v3) = (Net.dst (m ((c : Thread nD τ).loc main_arg1))) := (W4_of_ne m ρ c main_v3 (by decide)).trans (dst_at3 m ρ c)

theorem h2_at5 : V5 m ρ c main_v29 = (Net.stepRelu (Net.src (m ((c : Thread nD τ).loc main_arg1))) (Net.dst (m ((c : Thread nD τ).loc main_arg1))) (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) :=
  (show W5 m ρ c (Proc.devRef .tc main_v29) = W4 m ρ c (Proc.devRef .tc main_v29) from (StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))).trans (h2_at4 m ρ c)

theorem agg_at5 : V5 m ρ c main_v39 = Net.aggregate (Net.src (m ((c : Thread nD τ).loc main_arg1))) (Net.dst (m ((c : Thread nD τ).loc main_arg1))) (Net.stepRelu (Net.src (m ((c : Thread nD τ).loc main_arg1))) (Net.dst (m ((c : Thread nD τ).loc main_arg1))) (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) := by
  show StableHlo.after hostOps2 (W4 m ρ c) (Proc.devRef .tc main_v39) = _
  dsimp only [hostOps2]
  after_results_simp
  rw [src_at4, dst_at4, h2_at4]
  rfl

theorem row1_at5 : V5 m ρ c main_v40 = Net.row (m ((c : Thread nD τ).loc main_arg12)) := by
  show StableHlo.after hostOps2 (W4 m ρ c) (Proc.devRef .tc main_v40) = _
  dsimp only [hostOps2]
  after_results
  rw [arg12_at4]
  rfl

theorem row2_at5 : V5 m ρ c main_v41 = Net.row (m ((c : Thread nD τ).loc main_arg14)) := by
  show StableHlo.after hostOps2 (W4 m ρ c) (Proc.devRef .tc main_v41) = _
  dsimp only [hostOps2]
  after_results
  rw [arg14_at4]
  rfl

/-! ## Region 2 and the read-out -/

/-- Region 2's result array: the last layer, not rectified. -/
theorem h3_at6 : W6 m ρ c (Proc.devRef .tc main_v42) = (Net.stepLin (Net.src (m ((c : Thread nD τ).loc main_arg1))) (Net.dst (m ((c : Thread nD τ).loc main_arg1))) (Net.stepRelu (Net.src (m ((c : Thread nD τ).loc main_arg1))) (Net.dst (m ((c : Thread nD τ).loc main_arg1))) (Net.stepRelu (Net.src (m ((c : Thread nD τ).loc main_arg1))) (Net.dst (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14))) := by
  refine (W6_arr m ρ c 6).trans ((Region2.final (V5 m ρ) c).trans ?_)
  rw [h2_at5, agg_at5, row1_at5, row2_at5]
  show GinSpec.layerLin _ _ (W5 m ρ c (Proc.devRef .tc main_arg11)) _ (W5 m ρ c (Proc.devRef .tc main_arg13)) _ = _
  rw [arg11_at5, arg13_at5]
  rfl

/-- The network of the launch contents of the arguments, on device c. -/
def result : FVec Ideal S256x1 .f32 :=
  Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16))

/-- At the last boundary the result buffer holds the network of the launch contents of the arguments. -/
theorem result_at7 : W7 m ρ c (Proc.devRef .tc main_v49) = result m c := by
  show StableHlo.after hostOps3 (W6 m ρ c) (Proc.devRef .tc main_v49) = _
  dsimp only [hostOps3]
  after_results_simp
  rw [h3_at6, arg2_at6, arg15_at6, arg16_at6]
  rfl

end Cert.KernelIdeal.Boundary

end
-- ==== Proof.ResultRun.lean ====
/-
  The idealized kernel's run with its result.

  From any launch memory with all counters at zero, every weakly fair execution of the program on the TensorCores
  terminates without a fault; at the end every unscoped buffer holds the contents of the last boundary.  Read at the
  result buffer, that is the network of the arguments' launch contents; read at each argument buffer, it is the
  argument as launched.
-/
import proofs.«142037_j66022237274356_1_alg».proof.Proof.Gen.KernelIdeal.Frame
import proofs.«142037_j66022237274356_1_alg».proof.Proof.Boundary

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the result buffer at the network of the arguments and the arguments unchanged. -/
theorem run : θ_run defs (onTc (τ := τ) (main (F := Ideal))) ⟨m, fun _ => 0, ρ⟩ (fun r => ∀ c : Dev nD,
      r.2.mem ((c.tc : Thread nD τ).loc main_v49) = Boundary.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v49 (by decide))).trans (Boundary.result_at7 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.Result

end
-- ==== Proof.WholeLayer.lean ====
/-
  The reference's dense layer, written with whole-array host operations, is the layer of the specification.

  The reference computes  (max((h + a)·W₁ + b₁, 0))·W₂ + b₂  on the whole 100000 × 64 array: two contractions over the
  shared axis of length 64, the bias vectors laid out as rows and repeated down every row, and a rectifier against an
  array of zeros.  Read at an entry (p, q): a contraction is Σ_k left(p, k) · right(k, q); a repeated row is the row at
  (0, q); the array of zeros is 0.  That is, term for term, the specification's formula.
-/
import proofs.«142037_j66022237274356_1_alg».proof.Proof.Gen.ReferenceIdeal.Read
import proofs.«142037_j66022237274356_1_alg».proof.Proof.GinSpec

noncomputable section

namespace Cert.ReferenceIdeal.Layer

open Cert.ReferenceIdeal Cert.ReferenceIdeal.Gen Idealize.ShloMosaic Idealize.ShloMosaic.TcCoe Idealize.ShloMosaic.ValueIdx

/-- Entry (p, q) of a whole-array contraction is Σ_k left(p, k) · right(k, q). -/
theorem wholeProduct_apply (l : FVec Ideal S100000x64 .f32) (r : FVec Ideal S64x64 .f32) (p : Fin 100000) (q : Fin 64) :
    Host.dotGeneral dot_S100000x64_S64x64_S100000x64_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact Read.lhs_main_v15_0 _ _
    | ⟨1, _⟩ => exact (Read.lhs_main_v15_1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (Read.rhs_main_v15_0 _ _).trans hk
    | ⟨1, _⟩ => exact Read.rhs_main_v15_1 _ _)
  rw [el, er]

/-- A 1 × 64 row repeated down the 100000 rows: entry (p, q) is the row's entry (0, q). -/
theorem rowRepeat_apply (r : FVec Ideal S1x64 .f32) (p : Fin 100000) (q : Fin 64) :
    broadcastInDim S100000x64 ![0, 1] bcast_S1x64_S100000x64_0_1 r (ix2 p q) = r (ix2 (0 : Fin 1) q) :=
  broadcastInDim_apply _ bcast_S1x64_S100000x64_0_1 r (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The array filled with the zero word is 0 everywhere. -/
theorem zeros_apply (i : S100000x64.Idx) :
    broadcastInDim S100000x64 ![] bcast_S_S100000x64 (constant (F := Ideal) S_ .f32 0x00000000#32) i = (0 : EReal) := by
  rw [broadcastInDim_apply _ bcast_S_S100000x64 (constant (F := Ideal) S_ .f32 0x00000000#32) i ix0 (fun a => a.elim0)]
  exact Ideal.ofBits_zero_f32

/-- The repeated row as a function of the index. -/
theorem rowRepeat_fn (r : FVec Ideal S1x64 .f32) :
    broadcastInDim S100000x64 ![0, 1] bcast_S1x64_S100000x64_0_1 r = fun i : S100000x64.Idx => r (ix2 (0 : Fin 1) (i 1)) := by
  funext j
  obtain ⟨p, q, rfl⟩ : ∃ (p : Fin 100000) (q : Fin 64), j = ix2 p q := ⟨j 0, j 1, eq_ix2 j⟩
  exact rowRepeat_apply r p q

/-- The array of zeros as a function of the index. -/
theorem zeros_fn :
    broadcastInDim S100000x64 ![] bcast_S_S100000x64 (constant (F := Ideal) S_ .f32 0x00000000#32) = fun _ : S100000x64.Idx => (0 : EReal) :=
  funext zeros_apply

/-- The reference's layer without a final rectifier is the specification's. -/
theorem wholeLin_eq (h a : FVec Ideal S100000x64 .f32) (w1 : FVec Ideal S64x64 .f32) (r1 : FVec Ideal S1x64 .f32)
    (w2 : FVec Ideal S64x64 .f32) (r2 : FVec Ideal S1x64 .f32) :
    addf (Host.dotGeneral dot_S100000x64_S64x64_S100000x64_1_0_0_1_n_n none (maximumf (addf (Host.dotGeneral dot_S100000x64_S64x64_S100000x64_1_0_0_1_n_n none (addf h a) w1) (broadcastInDim S100000x64 ![0, 1] bcast_S1x64_S100000x64_0_1 r1)) (broadcastInDim S100000x64 ![] bcast_S_S100000x64 (constant (F := Ideal) S_ .f32 0x00000000#32))) w2) (broadcastInDim S100000x64 ![0, 1] bcast_S1x64_S100000x64_0_1 r2)
      = GinSpec.layerLin h a w1 r1 w2 r2 := by
  rw [rowRepeat_fn r1, rowRepeat_fn r2, zeros_fn]
  funext j
  obtain ⟨p, q, rfl⟩ : ∃ (p : Fin 100000) (q : Fin 64), j = ix2 p q := ⟨j 0, j 1, eq_ix2 j⟩
  simp only [addf_apply, maximumf_apply, wholeProduct_apply, GinSpec.layerLin_ix2, GinSpec.pre, GinSpec.hidden]

/-- The reference's layer followed by its rectifier is the specification's rectified layer. -/
theorem wholeRelu_eq (h a : FVec Ideal S100000x64 .f32) (w1 : FVec Ideal S64x64 .f32) (r1 : FVec Ideal S1x64 .f32)
    (w2 : FVec Ideal S64x64 .f32) (r2 : FVec Ideal S1x64 .f32) :
    maximumf (addf (Host.dotGeneral dot_S100000x64_S64x64_S100000x64_1_0_0_1_n_n none (maximumf (addf (Host.dotGeneral dot_S100000x64_S64x64_S100000x64_1_0_0_1_n_n none (addf h a) w1) (broadcastInDim S100000x64 ![0, 1] bcast_S1x64_S100000x64_0_1 r1)) (broadcastInDim S100000x64 ![] bcast_S_S100000x64 (constant (F := Ideal) S_ .f32 0x00000000#32))) w2) (broadcastInDim S100000x64 ![0, 1] bcast_S1x64_S100000x64_0_1 r2))
        (broadcastInDim S100000x64 ![] bcast_S_S100000x64 (constant (F := Ideal) S_ .f32 0x00000000#32))
      = GinSpec.layerRelu h a w1 r1 w2 r2 := by
  rw [wholeLin_eq, zeros_fn]
  funext j
  obtain ⟨p, q, rfl⟩ : ∃ (p : Fin 100000) (q : Fin 64), j = ix2 p q := ⟨j 0, j 1, eq_ix2 j⟩
  rw [maximumf_apply, GinSpec.layerLin_ix2, GinSpec.layerRelu_ix2]

end Cert.ReferenceIdeal.Layer

end
-- ==== Proof.WholeNet.lean ====
/-
  The reference's result is the network of its arguments.

  The reference's composed term has, from the inside out, three dense layers (each the whole-array layer of the
  specification, the first two rectified), each fed with the features and their neighbour aggregate, and the read-out.
  Its bias rows are the bias vectors repeated along a new leading axis of length one; the kernel lays the same vectors
  out by a reshape; the two 1 × 64 rows are equal, entry (0, k) of each being entry k of the vector.  The gathers,
  scatter-adds and the read-out are the same operations with the same dimension records in both programs.
-/
import proofs.«142037_j66022237274356_1_alg».proof.Proof.Gen.ReferenceIdeal.Run
import proofs.«142037_j66022237274356_1_alg».proof.Proof.WholeLayer
import proofs.«142037_j66022237274356_1_alg».proof.Proof.Network

set_option maxRecDepth 16384

noncomputable section

namespace Cert.ReferenceIdeal.Whole

open Cert.ReferenceIdeal Cert.ReferenceIdeal.Gen Cert.ReferenceIdeal.Value Idealize.ShloMosaic Idealize.ShloMosaic.TcCoe
open Idealize.SL.Sem Idealize.ShloMosaic.ValueIdx

/-- A vector repeated along a new leading unit axis is the vector reshaped to a 1 × 64 row. -/
theorem row_eq (b : FVec Ideal S64 .f32) :
    broadcastInDim S1x64 ![1] bcast_S64_S1x64_1 b = Cert.KernelIdeal.Net.row b := by
  funext j
  obtain ⟨z, k, rfl⟩ : ∃ (z : Fin 1) (k : Fin 64), j = ix2 z k := ⟨j 0, j 1, eq_ix2 j⟩
  have hb : broadcastInDim S1x64 ![1] bcast_S64_S1x64_1 b (ix2 z k) = b (ix1 k) :=
    broadcastInDim_apply _ bcast_S64_S1x64_1 b (ix2 z k) (ix1 k) (fun a => match a with
      | ⟨0, _⟩ => by show k.val = if (64 : Nat) = 1 then 0 else k.val; rw [if_neg (by decide)])
  have hr : Cert.KernelIdeal.Net.row b (ix2 z k) = b (ix1 k) := by
    unfold Cert.KernelIdeal.Net.row
    refine shapeCast_apply b _ (ix2 z k) (ix1 k) ?_
    rw [Shape.rowMajor_val_one, Shape.rowMajor_val_two]
    show k.val = z.val * 64 + k.val
    have := z.isLt
    omega
  rw [hb, hr]

/-- The reference's result term is the network of the launch contents of its arguments. -/
theorem result_eq (m : (ℓ : Loc nD τ sig) → Buf (Elt Ideal) ℓ) (c : Dev nD) :
    res_main_v77 (F := Ideal) m c = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v77
  rewrite [row_eq (m ((c.tc : Thread nD τ).loc main_arg4)),
    row_eq (m ((c.tc : Thread nD τ).loc main_arg6)),
    row_eq (m ((c.tc : Thread nD τ).loc main_arg8)),
    row_eq (m ((c.tc : Thread nD τ).loc main_arg10)),
    row_eq (m ((c.tc : Thread nD τ).loc main_arg12)),
    row_eq (m ((c.tc : Thread nD τ).loc main_arg14))]
  rewrite [Layer.wholeRelu_eq, Layer.wholeRelu_eq, Layer.wholeLin_eq]
  rfl

end Cert.ReferenceIdeal.Whole

end
-- ==== Proof.lean ====
/-
  The certificate of the tiled graph-network kernel against its whole-array reference.

  Both programs compute, from node features x (100000 × 64), an edge list, a batch vector and the weights of three
  dense layers and a linear head, the same function on the extended reals:

      h₁ = max(L₀(x, A x), 0),   h₂ = max(L₁(h₁, A h₁), 0),   h₃ = L₂(h₂, A h₂),   out = pool(h₃)·w + b,

  where A h is the scatter-add over edges of the gathered source rows of h, Lᵢ(h, a) = max((h + a)·W₁ + b₁, 0)·W₂ + b₂,
  and pool adds node rows into 256 graph slots.  The kernel computes each Lᵢ (with its rectifier, where there is one)
  in a tiled region of 20 blocks of 5000 rows and everything else on the host; the reference computes everything on the
  host.  A row of Lᵢ depends only on the same row of its two inputs, so the tiles assemble to the whole-array layer; on
  the extended reals narrowing to bf16 is the identity and a matrix product accumulated from zero is the plain sum,
  so tile arithmetic and whole-array arithmetic agree entry by entry.  No algebraic law beyond that is used, and the
  finiteness of the inputs is never needed.

  The frames of the two kernel programs are the generated ones; the reference's frame is its generated run with the
  result dropped; the idealization rewrote no operation, so there is nothing to preserve.
-/
import proofs.«142037_j66022237274356_1_alg».proof.Defs
import proofs.«142037_j66022237274356_1_alg».proof.Proof.Gen.Kernel
import proofs.«142037_j66022237274356_1_alg».proof.Proof.Gen.Kernel.Skeleton
import proofs.«142037_j66022237274356_1_alg».proof.Proof.Gen.Kernel.Launch
import proofs.«142037_j66022237274356_1_alg».proof.Proof.Gen.Kernel.Points
import proofs.«142037_j66022237274356_1_alg».proof.Proof.Gen.Kernel.Frame
import proofs.«142037_j66022237274356_1_alg».proof.Proof.Gen.KernelIdeal
import proofs.«142037_j66022237274356_1_alg».proof.Proof.Gen.KernelIdeal.Skeleton
import proofs.«142037_j66022237274356_1_alg».proof.Proof.Gen.KernelIdeal.Launch
import proofs.«142037_j66022237274356_1_alg».proof.Proof.Gen.KernelIdeal.Points
import proofs.«142037_j66022237274356_1_alg».proof.Proof.Gen.KernelIdeal.Frame
import proofs.«142037_j66022237274356_1_alg».proof.Proof.Gen.ReferenceIdeal
import proofs.«142037_j66022237274356_1_alg».proof.Proof.Gen.Pre_finite_inputs
import proofs.«142037_j66022237274356_1_alg».proof.Proof.Gen.ReferenceIdeal.Run
import proofs.«142037_j66022237274356_1_alg».proof.Proof.Gen.ReferenceIdeal.Read
import proofs.«142037_j66022237274356_1_alg».proof.Proof.ResultRun
import proofs.«142037_j66022237274356_1_alg».proof.Proof.WholeNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the arguments in their result buffers; the arguments agree. -/
theorem algebraic : Cert.algebraic_KernelIdeal_ReferenceIdeal := by
  intro m ρ m' ρ' _ hagree
  refine ⟨fun c => Cert.KernelIdeal.Boundary.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Whole.result_eq, e0, e1, e2, e3, e4, e5, e6, e7, e8, e9, e10, e11, e12, e13, e14, e15, e16]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
